-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S1024x1024 : Shape := ⟨2, ![1024, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_

variable [Facts]

def fn_part2 {F : FTy → Type} [FloatOps F] (main_arg7 : FVec F S1024x1024 .f32) (main_v33 : IVec S_ 1) : IVec S_ 1 :=
  let main_v34 : FVec F S1024x1024 .f32 := Host.absf main_arg7
  let main_cst_12 : FVec F S_ .f32 := constant S_ .f32 0x7F800000#32
  let main_v35 : FVec F S1024x1024 .f32 := broadcastInDim S1024x1024 ![] bcast_S_S1024x1024 main_cst_12
  let main_v36 : IVec S1024x1024 1 := cmpf .olt main_v34 main_v35
  let main_c_13 : IVec S_ 1 := constantI S_ 1 1#1
  let main_v37 : IVec S_ 1 := (fun x v => Host.reduce IntOp.andi x v reducesTo_S1024x1024_S_d0_1 h_S_) main_v36 main_c_13
  let main_v38 : IVec S_ 1 := andi main_v33 main_v37
  main_v38

def fn_part1 {F : FTy → Type} [FloatOps F] (main_arg4 : FVec F S1024x1024 .f32) (main_arg5 : FVec F S1024x1024 .f32) (main_arg6 : FVec F S1024x1024 .f32) (main_arg7 : FVec F S1024x1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024x1024 .f32 := Host.absf main_arg6
  let main_cst_10 : FVec F S_ .f32 := constant S_ .f32 0x7F800000#32
  let main_v30 : FVec F S1024x1024 .f32 := broadcastInDim S1024x1024 ![] bcast_S_S1024x1024 main_cst_10
  let main_v31 : IVec S1024x1024 1 := cmpf .olt main_v29 main_v30
  let main_c_11 : IVec S_ 1 := constantI S_ 1 1#1
  let main_v32 : IVec S_ 1 := (fun x v => Host.reduce IntOp.andi x v reducesTo_S1024x1024_S_d0_1 h_S_) main_v31 main_c_11
  let main_v33 : IVec S_ 1 := andi main_v28 main_v32
  fn_part2 (F := F) main_arg7 main_v33

def fn {F : FTy → Type} [FloatOps F] (main_arg0 : FVec F S8192x1024 .f32) (main_arg1 : FVec F S8192x1024 .f32) (main_arg2 : FVec F S1024x1024 .f32) (main_arg3 : FVec F S1024x1024 .f32) (main_arg4 : FVec F S1024x1024 .f32) (main_arg5 : FVec F S1024x1024 .f32) (main_arg6 : FVec F S1024x1024 .f32) (main_arg7 : FVec F S1024x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_v13 main_v16
-- ==== Kernel.lean ====
abbrev S8192x1024 : Shape := ⟨2, ![8192, 1024]⟩
abbrev S1024x1024 : Shape := ⟨2, ![1024, 1024]⟩
abbrev S3072x1024 : Shape := ⟨2, ![3072, 1024]⟩
abbrev S2048x1024 : Shape := ⟨2, ![2048, 1024]⟩
abbrev S512x1024 : Shape := ⟨2, ![512, 1024]⟩
abbrev S128x1024 : Shape := ⟨2, ![128, 1024]⟩
abbrev S128x3072 : Shape := ⟨2, ![128, 3072]⟩
abbrev S128x2048 : Shape := ⟨2, ![128, 2048]⟩

abbrev nBuf : Space → Nat
  | .hbm => 14
  | .vmem => 9
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S3072x1024, .f32⟩
  | .hbm, ⟨9, _⟩ => ⟨S3072x1024, .bf16⟩
  | .hbm, ⟨10, _⟩ => ⟨S2048x1024, .f32⟩
  | .hbm, ⟨11, _⟩ => ⟨S2048x1024, .bf16⟩
  | .hbm, ⟨12, _⟩ => ⟨S1024x1024, .bf16⟩
  | .hbm, ⟨13, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S3072x1024, .bf16⟩
  | .local _ .vmem, ⟨5, _⟩ => ⟨S2048x1024, .bf16⟩
  | .local _ .vmem, ⟨6, _⟩ => ⟨S1024x1024, .bf16⟩
  | .local _ .vmem, ⟨7, _⟩ => ⟨S512x1024, .f32⟩
  | .local _ .vmem, ⟨8, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S3072x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  concatenates_S1024x1024_S1024x1024_S1024x1024_S3072x1024_d0 : Shape.Concatenates [S1024x1024, S1024x1024, S1024x1024] S3072x1024 0
  bitsLt_bf16_f32 : FTy.bits .bf16 < FTy.bits .f32
  concatenates_S1024x1024_S1024x1024_S2048x1024_d0 : Shape.Concatenates [S1024x1024, S1024x1024] S2048x1024 0
  inb_S512x1024_S128x1024_0_0 : ∀ a, (![0, 0] : Fin 2 → Nat) a + S128x1024.size a ≤ S512x1024.size a
  h_S128x1024 : 0 < S128x1024.numel
  inb_S3072x1024_S3072x1024_0_0 : ∀ a, (![0, 0] : Fin 2 → Nat) a + S3072x1024.size a ≤ S3072x1024.size a
  h_S3072x1024 : 0 < S3072x1024.numel
  shapeCasts_S3072x1024_S3072x1024 : S3072x1024.ShapeCasts S3072x1024
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  slices_S128x3072_o0_0_S128x1024 : S128x3072.Slices ![0, 0] S128x1024
  slices_S128x2048_o0_0_S128x1024 : S128x2048.Slices ![0, 0] S128x1024
  slices_S128x3072_o0_1024_S128x1024 : S128x3072.Slices ![0, 1024] S128x1024
  slices_S128x2048_o0_1024_S128x1024 : S128x2048.Slices ![0, 1024] S128x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  slices_S128x3072_o0_2048_S128x1024 : S128x3072.Slices ![0, 2048] S128x1024
  inb_S512x1024_S128x1024_128_0 : ∀ a, (![128, 0] : Fin 2 → Nat) a + S128x1024.size a ≤ S512x1024.size a
  inb_S512x1024_S128x1024_256_0 : ∀ a, (![256, 0] : Fin 2 → Nat) a + S128x1024.size a ≤ S512x1024.size a
  inb_S512x1024_S128x1024_384_0 : ∀ a, (![384, 0] : Fin 2 → Nat) a + S128x1024.size a ≤ S512x1024.size a
  dot_S128x1024_S3072x1024_S128x3072_1_1_0_0_n_n_wf : DotDims.WF S128x1024 S3072x1024 S128x3072 [1] [1] [0] [0] [] []
  dot_S128x1024_S2048x1024_S128x2048_1_1_0_0_n_n_wf : DotDims.WF S128x1024 S2048x1024 S128x2048 [1] [1] [0] [0] [] []
  dot_S128x1024_S1024x1024_S128x1024_1_1_0_0_n_n_wf : DotDims.WF S128x1024 S1024x1024 S128x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S8192x1024.size a
  hwx0_0 : ∀ i : grid0.Coords, EltTy.bits .f32 = 32 ∨ (Rect.block (s := S8192x1024) S512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S8192x1024.size a
  hwx0_1 : ∀ i : grid0.Coords, EltTy.bits .f32 = 32 ∨ (Rect.block (s := S8192x1024) S512x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S3072x1024.size a ≤ S3072x1024.size a
  hwx0_2 : ∀ i : grid0.Coords, EltTy.bits .bf16 = 32 ∨ (Rect.block (s := S3072x1024) S3072x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2048x1024.size a ≤ S2048x1024.size a
  hwx0_3 : ∀ i : grid0.Coords, EltTy.bits .bf16 = 32 ∨ (Rect.block (s := S2048x1024) S2048x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S1024x1024.size a
  hwx0_4 : ∀ i : grid0.Coords, EltTy.bits .bf16 = 32 ∨ (Rect.block (s := S1024x1024) S1024x1024.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x1024.size a ≤ S8192x1024.size a
  hwx0_5 : ∀ i : grid0.Coords, EltTy.bits .f32 = 32 ∨ (Rect.block (s := S8192x1024) S512x1024.size (cc0_transform_5 i) (hinb0_5 i)).WholeWords (EltTy.packing .f32)

variable [Facts₀]

def dot_S128x1024_S3072x1024_S128x3072_1_1_0_0_n_n : DotDims S128x1024 S3072x1024 S128x3072 where
  lhsContracting := [1]
  rhsContracting := [1]
  lhsNonContracting := [0]
  rhsNonContracting := [0]
  lhsBatch := []
  rhsBatch := []
  wf := dot_S128x1024_S3072x1024_S128x3072_1_1_0_0_n_n_wf
def dot_S128x1024_S2048x1024_S128x2048_1_1_0_0_n_n : DotDims S128x1024 S2048x1024 S128x2048 where
  lhsContracting := [1]
  rhsContracting := [1]
  lhsNonContracting := [0]
  rhsNonContracting := [0]
  lhsBatch := []
  rhsBatch := []
  wf := dot_S128x1024_S2048x1024_S128x2048_1_1_0_0_n_n_wf
def dot_S128x1024_S1024x1024_S128x1024_1_1_0_0_n_n : DotDims S128x1024 S1024x1024 S128x1024 where
  lhsContracting := [1]
  rhsContracting := [1]
  lhsNonContracting := [0]
  rhsNonContracting := [0]
  lhsBatch := []
  rhsBatch := []
  wf := dot_S128x1024_S1024x1024_S128x1024_1_1_0_0_n_n_wf

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S3072x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S2048x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1024x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S512x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S8192x1024 : Shape := ⟨2, ![8192, 1024]⟩
abbrev S1024x1024 : Shape := ⟨2, ![1024, 1024]⟩
abbrev S3072x1024 : Shape := ⟨2, ![3072, 1024]⟩
abbrev S1024x3072 : Shape := ⟨2, ![1024, 3072]⟩
abbrev S8192x3072 : Shape := ⟨2, ![8192, 3072]⟩
abbrev S2048x1024 : Shape := ⟨2, ![2048, 1024]⟩
abbrev S1024x2048 : Shape := ⟨2, ![1024, 2048]⟩
abbrev S8192x2048 : Shape := ⟨2, ![8192, 2048]⟩
abbrev S_ : Shape := ⟨0, ![]⟩

abbrev nBuf : Space → Nat
  | .hbm => 48
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S3072x1024, .f32⟩
  | .hbm, ⟨9, _⟩ => ⟨S1024x3072, .f32⟩
  | .hbm, ⟨10, _⟩ => ⟨S8192x3072, .f32⟩
  | .hbm, ⟨11, _⟩ => ⟨S2048x1024, .f32⟩
  | .hbm, ⟨12, _⟩ => ⟨S1024x2048, .f32⟩
  | .hbm, ⟨13, _⟩ => ⟨S8192x2048, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S_, .f32⟩
  | .hbm, ⟨20, _⟩ => ⟨S8192x1024, .f32⟩
  | .hbm, ⟨21, _⟩ => ⟨S8192x1024, .f32⟩
  | .hbm, ⟨22, _⟩ => ⟨S_, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S_, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S1024x1024, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S8192x1024, .f32⟩
  | .hbm, ⟨43, _⟩ => ⟨S_, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_cst_0 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_1 : Ref sig .tc := ⟨.hbm, 30, rfl⟩
abbrev main_v20 : Ref sig .tc := ⟨.hbm, 31, rfl⟩
abbrev main_v21 : Ref sig .tc := ⟨.hbm, 32, rfl⟩
abbrev main_cst_2 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_3 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩

abbrev nD : Nat := 1
abbrev τ : Topo := Topo.v7x

variable {F : FTy → Type} [FloatOps F]

class Facts₀ : Prop where
  concatenates_S1024x1024_S1024x1024_S1024x1024_S3072x1024_d0 : Shape.Concatenates [S1024x1024, S1024x1024, S1024x1024] S3072x1024 0
  transposes_S3072x1024_S1024x3072_1_0 : S3072x1024.Transposes [1, 0] S1024x3072
  concatenates_S1024x1024_S1024x1024_S2048x1024_d0 : Shape.Concatenates [S1024x1024, S1024x1024] S2048x1024 0
  transposes_S2048x1024_S1024x2048_1_0 : S2048x1024.Transposes [1, 0] S1024x2048
  slices_S8192x3072_S8192x1024_0_0 : S8192x3072.Slices ![0, 0] S8192x1024
  slices_S8192x2048_S8192x1024_0_0 : S8192x2048.Slices ![0, 0] S8192x1024
  bcast_S_S8192x1024 : S_.BroadcastsInDim S8192x1024 (![] : Fin 0 → Fin S8192x1024.rank)
  slices_S8192x3072_S8192x1024_0_1024 : S8192x3072.Slices ![0, 1024] S8192x1024
  slices_S8192x2048_S8192x1024_0_1024 : S8192x2048.Slices ![0, 1024] S8192x1024
  transposes_S1024x1024_S1024x1024_1_0 : S1024x1024.Transposes [1, 0] S1024x1024
  slices_S8192x3072_S8192x1024_0_2048 : S8192x3072.Slices ![0, 2048] S8192x1024
  dot_S8192x1024_S1024x3072_S8192x3072_1_0_0_1_n_n_wf : DotDims.WF S8192x1024 S1024x3072 S8192x3072 [1] [0] [0] [1] [] []
  dot_S8192x1024_S1024x2048_S8192x2048_1_0_0_1_n_n_wf : DotDims.WF S8192x1024 S1024x2048 S8192x2048 [1] [0] [0] [1] [] []
  dot_S8192x1024_S1024x1024_S8192x1024_1_0_0_1_n_n_wf : DotDims.WF S8192x1024 S1024x1024 S8192x1024 [1] [0] [0] [1] [] []

variable [Facts₀]

def dot_S8192x1024_S1024x3072_S8192x3072_1_0_0_1_n_n : DotDims S8192x1024 S1024x3072 S8192x3072 where
  lhsContracting := [1]
  rhsContracting := [0]
  lhsNonContracting := [0]
  rhsNonContracting := [1]
  lhsBatch := []
  rhsBatch := []
  wf := dot_S8192x1024_S1024x3072_S8192x3072_1_0_0_1_n_n_wf
def dot_S8192x1024_S1024x2048_S8192x2048_1_0_0_1_n_n : DotDims S8192x1024 S1024x2048 S8192x2048 where
  lhsContracting := [1]
  rhsContracting := [0]
  lhsNonContracting := [0]
  rhsNonContracting := [1]
  lhsBatch := []
  rhsBatch := []
  wf := dot_S8192x1024_S1024x2048_S8192x2048_1_0_0_1_n_n_wf
def dot_S8192x1024_S1024x1024_S8192x1024_1_0_0_1_n_n : DotDims S8192x1024 S1024x1024 S8192x1024 where
  lhsContracting := [1]
  rhsContracting := [0]
  lhsNonContracting := [0]
  rhsNonContracting := [1]
  lhsBatch := []
  rhsBatch := []
  wf := dot_S8192x1024_S1024x1024_S8192x1024_1_0_0_1_n_n_wf

class Facts : Prop extends Facts₀ where

variable [Facts]
-- ==== Proof.FrameK.lean ====
/-
  The frame of the recurrent-cell program: under any launch memory @main terminates, faults nowhere and leaves its eight
  argument arrays as they were, and the run names what every array of the pipeline holds at the end.

  @main first joins three of the weight matrices along the rows into one [3072, 1024] matrix and two more into a
  [2048, 1024] matrix and rounds the joined matrices and a sixth weight matrix to the narrow format; the region then walks
  the 8192 batch rows in sixteen blocks of 512 rows. At each block the body reads the block's rows of the two batch
  arrays and the three rounded weight matrices whole, and writes the block of the result in four bands of 128 rows,
  each band a function of the same 128 rows of the two batch blocks and of the weights. The four bands tile the
  block, so what the body leaves in the result's buffer is one function of what it read, whatever the buffer held
  before; the two batch arrays and the weights are only read.
-/
import proofs.«165459_j34943853920831_2_alg».proof.Proof.Gen.Kernel.Launch
import proofs.«165459_j34943853920831_2_alg».proof.Proof.Gen.Kernel.Skeleton
import proofs.«165459_j34943853920831_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- What core `c`'s buffers hold when the region is entered: the launch memory after the five host operations
    (the two joins and the three roundings). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

/-- @main is the five host operations followed by the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation writes an argument array: each writes a fresh intermediate. -/
theorem V_arg (c : Dev nD) (b : Ref sig .tc)
    (h0 : b ≠ main_v0) (h1 : b ≠ main_v1) (h2 : b ≠ main_v2) (h3 : b ≠ main_v3) (h4 : b ≠ main_v4) :
    V m c b = m ((c : Thread nD τ).loc b) :=
  StableHlo.after_of_forall_not_mem (b := Proc.devRef .tc b) _ _ (List.forall_iff_forall_mem.mp (by
    simp only [hostOps0, List.Forall, StableHlo.nary_writes, StableHlo.unary_writes, StableHlo.binary_writes, Finset.mem_singleton]
    exact ⟨StableHlo.devRef_ne_of_ne h0, StableHlo.devRef_ne_of_ne h1, StableHlo.devRef_ne_of_ne h2, StableHlo.devRef_ne_of_ne h3,
      StableHlo.devRef_ne_of_ne h4⟩))

theorem V_main_arg0 (c : Dev nD) : V m c main_arg0 = m ((c : Thread nD τ).loc main_arg0) :=
  V_arg m c main_arg0 (by decide) (by decide) (by decide) (by decide) (by decide)
theorem V_main_arg1 (c : Dev nD) : V m c main_arg1 = m ((c : Thread nD τ).loc main_arg1) :=
  V_arg m c main_arg1 (by decide) (by decide) (by decide) (by decide) (by decide)
theorem V_main_arg2 (c : Dev nD) : V m c main_arg2 = m ((c : Thread nD τ).loc main_arg2) :=
  V_arg m c main_arg2 (by decide) (by decide) (by decide) (by decide) (by decide)
theorem V_main_arg3 (c : Dev nD) : V m c main_arg3 = m ((c : Thread nD τ).loc main_arg3) :=
  V_arg m c main_arg3 (by decide) (by decide) (by decide) (by decide) (by decide)
theorem V_main_arg4 (c : Dev nD) : V m c main_arg4 = m ((c : Thread nD τ).loc main_arg4) :=
  V_arg m c main_arg4 (by decide) (by decide) (by decide) (by decide) (by decide)
theorem V_main_arg5 (c : Dev nD) : V m c main_arg5 = m ((c : Thread nD τ).loc main_arg5) :=
  V_arg m c main_arg5 (by decide) (by decide) (by decide) (by decide) (by decide)
theorem V_main_arg6 (c : Dev nD) : V m c main_arg6 = m ((c : Thread nD τ).loc main_arg6) :=
  V_arg m c main_arg6 (by decide) (by decide) (by decide) (by decide) (by decide)
theorem V_main_arg7 (c : Dev nD) : V m c main_arg7 = m ((c : Thread nD τ).loc main_arg7) :=
  V_arg m c main_arg7 (by decide) (by decide) (by decide) (by decide) (by decide)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not: a point that does
    not fetch it has the block index of the point before, and the body leaves the buffer as it found it. -/
theorem before_in0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_in2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_in3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_in4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- A run that ends with every array of the pipeline at what the library computes from the proof data, and every other
    unscoped buffer as the region found it, ends with the eight argument arrays as launched: two of them are input
    windows' arrays, the other six no window stages, and no host operation wrote any of them. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c)⟩) h

/-- The same, state by state: a final state meeting the run's post has the eight argument arrays as launched. -/
theorem args_kept (dats : (p : Fin 1) → (c : Dev nD) → Dat τ (Elt F) Unit ℕ (UR sig nD τ) ℕ (cfgs p) c)
    (hA : ∀ c w, (dats 0 c).A w = V m c (Pipeline.arrRef spec0 w))
    (r : PUnit × MemSt nD τ sig (Elt F)) (h : Pipeline.FramePost cfgs dats 0 (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  ⟨((h c).1 0).trans (((dats 0 c).arrAt_in 0 rfl _).trans ((hA c 0).trans (V_main_arg0 m c))),
    ((h c).1 1).trans (((dats 0 c).arrAt_in 1 rfl _).trans ((hA c 1).trans (V_main_arg1 m c))),
    ((h c).2 main_arg2 (Pipeline.mem_restRefs_of main_arg2 (by decide) (by decide))).trans (V_main_arg2 m c),
    ((h c).2 main_arg3 (Pipeline.mem_restRefs_of main_arg3 (by decide) (by decide))).trans (V_main_arg3 m c),
    ((h c).2 main_arg4 (Pipeline.mem_restRefs_of main_arg4 (by decide) (by decide))).trans (V_main_arg4 m c),
    ((h c).2 main_arg5 (Pipeline.mem_restRefs_of main_arg5 (by decide) (by decide))).trans (V_main_arg5 m c),
    ((h c).2 main_arg6 (Pipeline.mem_restRefs_of main_arg6 (by decide) (by decide))).trans (V_main_arg6 m c),
    ((h c).2 main_arg7 (Pipeline.mem_restRefs_of main_arg7 (by decide) (by decide))).trans (V_main_arg7 m c)⟩

/-! ## The body's accesses -/

/-- The four bands of 128 rows of a 512-row block. -/
abbrev band0 : Rect S512x1024 := Rect.unit (s := S512x1024) ![0, 0] S128x1024.size inb_S512x1024_S128x1024_0_0
abbrev band1 : Rect S512x1024 := Rect.unit (s := S512x1024) ![128, 0] S128x1024.size inb_S512x1024_S128x1024_128_0
abbrev band2 : Rect S512x1024 := Rect.unit (s := S512x1024) ![256, 0] S128x1024.size inb_S512x1024_S128x1024_256_0
abbrev band3 : Rect S512x1024 := Rect.unit (s := S512x1024) ![384, 0] S128x1024.size inb_S512x1024_S128x1024_384_0
/-- The three weight matrices, each read whole. -/
abbrev wholeWx : Rect S3072x1024 := Rect.unit (s := S3072x1024) ![0, 0] S3072x1024.size inb_S3072x1024_S3072x1024_0_0
abbrev wholeWh : Rect S2048x1024 := Rect.unit (s := S2048x1024) ![0, 0] S2048x1024.size inb_S2048x1024_S2048x1024_0_0
abbrev wholeWu : Rect S1024x1024 := Rect.unit (s := S1024x1024) ![0, 0] S1024x1024.size inb_S1024x1024_S1024x1024_0_0

/-! ## What the body leaves in the result's buffer -/

/-- The result's staging buffer after the body, from the five input blocks: its four band stores as pieces, the last
    store first, each band's value the body's arithmetic on the same band of the two batch blocks and on the weights. -/
def outBlock (x0 x1 : Vec F S512x1024 .f32) (x2 : Vec F S3072x1024 .bf16) (x3 : Vec F S2048x1024 .bf16) (x4 : Vec F S1024x1024 .bf16) :
    Vec F S512x1024 .f32 :=
  View.canon [
    ⟨band3, k0_pay1 (View.ld x1 band3) (k0_pay10 (View.ld x0 band3) (View.ld x2 wholeWx))
      (k0_pay12 (View.ld x0 band3) (View.ld x1 band3) (View.ld x2 wholeWx) (View.ld x3 wholeWh))
      (k0_pay13 (View.ld x0 band3) (View.ld x1 band3) (View.ld x2 wholeWx) (View.ld x3 wholeWh)) (View.ld x4 wholeWu)⟩,
    ⟨band2, k0_pay9 (View.ld x1 band2) (k0_pay6 (View.ld x0 band2) (View.ld x2 wholeWx)) (k0_pay7 (View.ld x1 band2) (View.ld x3 wholeWh))
      (k0_pay8 (View.ld x0 band2) (View.ld x2 wholeWx)) (View.ld x4 wholeWu)⟩,
    ⟨band1, k0_pay5 (View.ld x1 band1) (k0_pay3 (View.ld x0 band1)) (k0_pay4 (View.ld x1 band1)) (View.ld x2 wholeWx) (View.ld x3 wholeWh)
      (View.ld x4 wholeWu)⟩,
    ⟨band0, k0_pay2 (View.ld x0 band0) (View.ld x1 band0) (View.ld x2 wholeWx) (View.ld x3 wholeWh) (View.ld x4 wholeWu)⟩]

/-- The four bands tile the block, so they cover it. -/
theorem bands_cover (p0 p1 p2 p3 : Vec F S128x1024 .f32) (y : S512x1024.Idx) :
    ∃ pc ∈ ([⟨band3, p0⟩, ⟨band2, p1⟩, ⟨band1, p2⟩, ⟨band0, p3⟩] : List (View.Piece (Elt F) S512x1024 .f32)), y ∈ pc.1.set :=
  View.cover_of_tiled [⟨band3, p0⟩, ⟨band2, p1⟩, ⟨band1, p2⟩, ⟨band0, p3⟩] S128x1024.size (by rfl) y

/-! ## The body's triple -/

set_option maxHeartbeats 4000000 in
/-- The body on whole staging buffers, the five inputs' at known contents and the result's at anything, runs to a state
    holding the inputs' as they were and the result's at `outBlock` of the inputs'. -/
theorem sound_kernel (c : Dev nD) (E : Set ℕ) (i : grid0.Coords)
    (arg1 : Memref sig .tc .vmem S512x1024 .f32) (harg1 : arg1.IsWhole) (arg2 : Memref sig .tc .vmem S512x1024 .f32) (harg2 : arg2.IsWhole)
    (arg3 : Memref sig .tc .vmem S3072x1024 .bf16) (harg3 : arg3.IsWhole) (arg4 : Memref sig .tc .vmem S2048x1024 .bf16) (harg4 : arg4.IsWhole)
    (arg5 : Memref sig .tc .vmem S1024x1024 .bf16) (harg5 : arg5.IsWhole) (arg6 : Memref sig .tc .vmem S512x1024 .f32) (harg6 : arg6.IsWhole)
    (x0 x1 : Vec F S512x1024 .f32) (x2 : Vec F S3072x1024 .bf16) (x3 : Vec F S2048x1024 .bf16) (x4 : Vec F S1024x1024 .bf16)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (outBlock x0 x1 x2 x3 x4)) -∗ K ⟨⟩))
      ⊢ wp frame (wpE (defs₀ (F := F)) Variants.none c none) E
          (cc0__gru_kernel i arg1 harg1 arg2 harg2 arg3 harg3 arg4 harg4 arg5 harg5 arg6 harg6) K := by
  simp only [cc0__gru_kernel_eq_skeleton]; unfold cc0__gru_kernel_skel
  simp only [k0_part1_eq_skeleton, k0_part2_eq_skeleton, k0_part3_eq_skeleton]; unfold k0_part1_skel k0_part2_skel k0_part3_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  try dsimp only
  exact View.read_writes_eq_canon _ _ _ (bands_cover _ _ _ _)

/-! ## The pipeline's proof data -/

/-- The proof data of the pipeline on core `c`: the arrays as the region finds them; after the body at point `t` each
    input's buffer at its block and the result's at `outBlock` of the five input blocks; the invariant the scoped rest
    and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outBlock (iblk m c 0 t) (iblk m c 1 t) (iblk m c 2 t) (iblk m c 3 t) (iblk m c 4 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) :
    (dats m 0 c).after 5 t = outBlock (iblk m c 0 t) (iblk m c 1 t) (iblk m c 2 t) (iblk m c 3 t) (iblk m c 4 t) := by dsimp only [dats]

theorem before0 (c : Dev nD) (t : Fin cfg0.N) (d) : (dats m 0 c).before 0 t d = iblk m c 0 t :=
  before_in0_of m (dats m 0 c) (A_eq m c 0) (after0 m c) t d
theorem before1 (c : Dev nD) (t : Fin cfg0.N) (d) : (dats m 0 c).before 1 t d = iblk m c 1 t :=
  before_in1_of m (dats m 0 c) (A_eq m c 1) (after1 m c) t d
theorem before2 (c : Dev nD) (t : Fin cfg0.N) (d) : (dats m 0 c).before 2 t d = iblk m c 2 t :=
  before_in2_of m (dats m 0 c) (A_eq m c 2) (after2 m c) t d
theorem before3 (c : Dev nD) (t : Fin cfg0.N) (d) : (dats m 0 c).before 3 t d = iblk m c 3 t :=
  before_in3_of m (dats m 0 c) (A_eq m c 3) (after3 m c) t d
theorem before4 (c : Dev nD) (t : Fin cfg0.N) (d) : (dats m 0 c).before 4 t d = iblk m c 4 t :=
  before_in4_of m (dats m 0 c) (A_eq m c 4) (after4 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The body at any point: the inputs' buffers hold their blocks, so the body's triple applies; the invariant and the
    core's obligations pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4]
  rw [show (dats m 0 c).Φ t.succ = (dats m 0 c).Φ t.castSucc from rfl,
    show (dats m 0 c).owesAt () t.succ = (dats m 0 c).owesAt () t.castSucc from rfl,
    after0, after1, after2, after3, after4, after5]
  iintro ⟨HΦ, Ho, ⟨%d0, H0⟩, ⟨%d1, H1⟩, ⟨%d2, H2⟩, ⟨%d3, H3⟩, ⟨%d4, H4⟩, ⟨%d5, H5⟩⟩
  iapply (sound_kernel c Set.univ _ _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- For any values, from any memory with zero counters: every weakly fair execution of @main terminates, and every
    final state has every array of the pipeline at what the library computes from the proof data and every other
    unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: @main terminates, faults nowhere, and leaves its eight argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (dats m) (A_eq m) (run_main m ρ)

end Cert.Kernel.Hand

end
-- ==== Proof.FrameKI.lean ====
/-
  The frame of the recurrent-cell program: under any launch memory @main terminates, faults nowhere and leaves its eight
  argument arrays as they were, and the run names what every array of the pipeline holds at the end.

  @main first joins three of the weight matrices along the rows into one [3072, 1024] matrix and two more into a
  [2048, 1024] matrix and rounds the joined matrices and a sixth weight matrix to the narrow format; the region then walks
  the 8192 batch rows in sixteen blocks of 512 rows. At each block the body reads the block's rows of the two batch
  arrays and the three rounded weight matrices whole, and writes the block of the result in four bands of 128 rows,
  each band a function of the same 128 rows of the two batch blocks and of the weights. The four bands tile the
  block, so what the body leaves in the result's buffer is one function of what it read, whatever the buffer held
  before; the two batch arrays and the weights are only read.
-/
import proofs.«165459_j34943853920831_2_alg».proof.Proof.Gen.KernelIdeal.Launch
import proofs.«165459_j34943853920831_2_alg».proof.Proof.Gen.KernelIdeal.Skeleton
import proofs.«165459_j34943853920831_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- What core `c`'s buffers hold when the region is entered: the launch memory after the five host operations
    (the two joins and the three roundings). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

/-- @main is the five host operations followed by the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation writes an argument array: each writes a fresh intermediate. -/
theorem V_arg (c : Dev nD) (b : Ref sig .tc)
    (h0 : b ≠ main_v0) (h1 : b ≠ main_v1) (h2 : b ≠ main_v2) (h3 : b ≠ main_v3) (h4 : b ≠ main_v4) :
    V m c b = m ((c : Thread nD τ).loc b) :=
  StableHlo.after_of_forall_not_mem (b := Proc.devRef .tc b) _ _ (List.forall_iff_forall_mem.mp (by
    simp only [hostOps0, List.Forall, StableHlo.nary_writes, StableHlo.unary_writes, StableHlo.binary_writes, Finset.mem_singleton]
    exact ⟨StableHlo.devRef_ne_of_ne h0, StableHlo.devRef_ne_of_ne h1, StableHlo.devRef_ne_of_ne h2, StableHlo.devRef_ne_of_ne h3,
      StableHlo.devRef_ne_of_ne h4⟩))

theorem V_main_arg0 (c : Dev nD) : V m c main_arg0 = m ((c : Thread nD τ).loc main_arg0) :=
  V_arg m c main_arg0 (by decide) (by decide) (by decide) (by decide) (by decide)
theorem V_main_arg1 (c : Dev nD) : V m c main_arg1 = m ((c : Thread nD τ).loc main_arg1) :=
  V_arg m c main_arg1 (by decide) (by decide) (by decide) (by decide) (by decide)
theorem V_main_arg2 (c : Dev nD) : V m c main_arg2 = m ((c : Thread nD τ).loc main_arg2) :=
  V_arg m c main_arg2 (by decide) (by decide) (by decide) (by decide) (by decide)
theorem V_main_arg3 (c : Dev nD) : V m c main_arg3 = m ((c : Thread nD τ).loc main_arg3) :=
  V_arg m c main_arg3 (by decide) (by decide) (by decide) (by decide) (by decide)
theorem V_main_arg4 (c : Dev nD) : V m c main_arg4 = m ((c : Thread nD τ).loc main_arg4) :=
  V_arg m c main_arg4 (by decide) (by decide) (by decide) (by decide) (by decide)
theorem V_main_arg5 (c : Dev nD) : V m c main_arg5 = m ((c : Thread nD τ).loc main_arg5) :=
  V_arg m c main_arg5 (by decide) (by decide) (by decide) (by decide) (by decide)
theorem V_main_arg6 (c : Dev nD) : V m c main_arg6 = m ((c : Thread nD τ).loc main_arg6) :=
  V_arg m c main_arg6 (by decide) (by decide) (by decide) (by decide) (by decide)
theorem V_main_arg7 (c : Dev nD) : V m c main_arg7 = m ((c : Thread nD τ).loc main_arg7) :=
  V_arg m c main_arg7 (by decide) (by decide) (by decide) (by decide) (by decide)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not: a point that does
    not fetch it has the block index of the point before, and the body leaves the buffer as it found it. -/
theorem before_in0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_in2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_in3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_in4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- A run that ends with every array of the pipeline at what the library computes from the proof data, and every other
    unscoped buffer as the region found it, ends with the eight argument arrays as launched: two of them are input
    windows' arrays, the other six no window stages, and no host operation wrote any of them. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c)⟩) h

/-- The same, state by state: a final state meeting the run's post has the eight argument arrays as launched. -/
theorem args_kept (dats : (p : Fin 1) → (c : Dev nD) → Dat τ (Elt F) Unit ℕ (UR sig nD τ) ℕ (cfgs p) c)
    (hA : ∀ c w, (dats 0 c).A w = V m c (Pipeline.arrRef spec0 w))
    (r : PUnit × MemSt nD τ sig (Elt F)) (h : Pipeline.FramePost cfgs dats 0 (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  ⟨((h c).1 0).trans (((dats 0 c).arrAt_in 0 rfl _).trans ((hA c 0).trans (V_main_arg0 m c))),
    ((h c).1 1).trans (((dats 0 c).arrAt_in 1 rfl _).trans ((hA c 1).trans (V_main_arg1 m c))),
    ((h c).2 main_arg2 (Pipeline.mem_restRefs_of main_arg2 (by decide) (by decide))).trans (V_main_arg2 m c),
    ((h c).2 main_arg3 (Pipeline.mem_restRefs_of main_arg3 (by decide) (by decide))).trans (V_main_arg3 m c),
    ((h c).2 main_arg4 (Pipeline.mem_restRefs_of main_arg4 (by decide) (by decide))).trans (V_main_arg4 m c),
    ((h c).2 main_arg5 (Pipeline.mem_restRefs_of main_arg5 (by decide) (by decide))).trans (V_main_arg5 m c),
    ((h c).2 main_arg6 (Pipeline.mem_restRefs_of main_arg6 (by decide) (by decide))).trans (V_main_arg6 m c),
    ((h c).2 main_arg7 (Pipeline.mem_restRefs_of main_arg7 (by decide) (by decide))).trans (V_main_arg7 m c)⟩

/-! ## The body's accesses -/

/-- The four bands of 128 rows of a 512-row block. -/
abbrev band0 : Rect S512x1024 := Rect.unit (s := S512x1024) ![0, 0] S128x1024.size inb_S512x1024_S128x1024_0_0
abbrev band1 : Rect S512x1024 := Rect.unit (s := S512x1024) ![128, 0] S128x1024.size inb_S512x1024_S128x1024_128_0
abbrev band2 : Rect S512x1024 := Rect.unit (s := S512x1024) ![256, 0] S128x1024.size inb_S512x1024_S128x1024_256_0
abbrev band3 : Rect S512x1024 := Rect.unit (s := S512x1024) ![384, 0] S128x1024.size inb_S512x1024_S128x1024_384_0
/-- The three weight matrices, each read whole. -/
abbrev wholeWx : Rect S3072x1024 := Rect.unit (s := S3072x1024) ![0, 0] S3072x1024.size inb_S3072x1024_S3072x1024_0_0
abbrev wholeWh : Rect S2048x1024 := Rect.unit (s := S2048x1024) ![0, 0] S2048x1024.size inb_S2048x1024_S2048x1024_0_0
abbrev wholeWu : Rect S1024x1024 := Rect.unit (s := S1024x1024) ![0, 0] S1024x1024.size inb_S1024x1024_S1024x1024_0_0

/-! ## What the body leaves in the result's buffer -/

/-- The result's staging buffer after the body, from the five input blocks: its four band stores as pieces, the last
    store first, each band's value the body's arithmetic on the same band of the two batch blocks and on the weights. -/
def outBlock (x0 x1 : Vec F S512x1024 .f32) (x2 : Vec F S3072x1024 .bf16) (x3 : Vec F S2048x1024 .bf16) (x4 : Vec F S1024x1024 .bf16) :
    Vec F S512x1024 .f32 :=
  View.canon [
    ⟨band3, k0_pay1 (View.ld x1 band3) (k0_pay10 (View.ld x0 band3) (View.ld x2 wholeWx))
      (k0_pay12 (View.ld x0 band3) (View.ld x1 band3) (View.ld x2 wholeWx) (View.ld x3 wholeWh))
      (k0_pay13 (View.ld x0 band3) (View.ld x1 band3) (View.ld x2 wholeWx) (View.ld x3 wholeWh)) (View.ld x4 wholeWu)⟩,
    ⟨band2, k0_pay9 (View.ld x1 band2) (k0_pay6 (View.ld x0 band2) (View.ld x2 wholeWx)) (k0_pay7 (View.ld x1 band2) (View.ld x3 wholeWh))
      (k0_pay8 (View.ld x0 band2) (View.ld x2 wholeWx)) (View.ld x4 wholeWu)⟩,
    ⟨band1, k0_pay5 (View.ld x1 band1) (k0_pay3 (View.ld x0 band1)) (k0_pay4 (View.ld x1 band1)) (View.ld x2 wholeWx) (View.ld x3 wholeWh)
      (View.ld x4 wholeWu)⟩,
    ⟨band0, k0_pay2 (View.ld x0 band0) (View.ld x1 band0) (View.ld x2 wholeWx) (View.ld x3 wholeWh) (View.ld x4 wholeWu)⟩]

/-- The four bands tile the block, so they cover it. -/
theorem bands_cover (p0 p1 p2 p3 : Vec F S128x1024 .f32) (y : S512x1024.Idx) :
    ∃ pc ∈ ([⟨band3, p0⟩, ⟨band2, p1⟩, ⟨band1, p2⟩, ⟨band0, p3⟩] : List (View.Piece (Elt F) S512x1024 .f32)), y ∈ pc.1.set :=
  View.cover_of_tiled [⟨band3, p0⟩, ⟨band2, p1⟩, ⟨band1, p2⟩, ⟨band0, p3⟩] S128x1024.size (by rfl) y

/-! ## The body's triple -/

set_option maxHeartbeats 4000000 in
/-- The body on whole staging buffers, the five inputs' at known contents and the result's at anything, runs to a state
    holding the inputs' as they were and the result's at `outBlock` of the inputs'. -/
theorem sound_kernel (c : Dev nD) (E : Set ℕ) (i : grid0.Coords)
    (arg1 : Memref sig .tc .vmem S512x1024 .f32) (harg1 : arg1.IsWhole) (arg2 : Memref sig .tc .vmem S512x1024 .f32) (harg2 : arg2.IsWhole)
    (arg3 : Memref sig .tc .vmem S3072x1024 .bf16) (harg3 : arg3.IsWhole) (arg4 : Memref sig .tc .vmem S2048x1024 .bf16) (harg4 : arg4.IsWhole)
    (arg5 : Memref sig .tc .vmem S1024x1024 .bf16) (harg5 : arg5.IsWhole) (arg6 : Memref sig .tc .vmem S512x1024 .f32) (harg6 : arg6.IsWhole)
    (x0 x1 : Vec F S512x1024 .f32) (x2 : Vec F S3072x1024 .bf16) (x3 : Vec F S2048x1024 .bf16) (x4 : Vec F S1024x1024 .bf16)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (outBlock x0 x1 x2 x3 x4)) -∗ K ⟨⟩))
      ⊢ wp frame (wpE (defs₀ (F := F)) Variants.none c none) E
          (cc0__gru_kernel i arg1 harg1 arg2 harg2 arg3 harg3 arg4 harg4 arg5 harg5 arg6 harg6) K := by
  simp only [cc0__gru_kernel_eq_skeleton]; unfold cc0__gru_kernel_skel
  simp only [k0_part1_eq_skeleton, k0_part2_eq_skeleton, k0_part3_eq_skeleton]; unfold k0_part1_skel k0_part2_skel k0_part3_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  try dsimp only
  exact View.read_writes_eq_canon _ _ _ (bands_cover _ _ _ _)

/-! ## The pipeline's proof data -/

/-- The proof data of the pipeline on core `c`: the arrays as the region finds them; after the body at point `t` each
    input's buffer at its block and the result's at `outBlock` of the five input blocks; the invariant the scoped rest
    and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outBlock (iblk m c 0 t) (iblk m c 1 t) (iblk m c 2 t) (iblk m c 3 t) (iblk m c 4 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) :
    (dats m 0 c).after 5 t = outBlock (iblk m c 0 t) (iblk m c 1 t) (iblk m c 2 t) (iblk m c 3 t) (iblk m c 4 t) := by dsimp only [dats]

theorem before0 (c : Dev nD) (t : Fin cfg0.N) (d) : (dats m 0 c).before 0 t d = iblk m c 0 t :=
  before_in0_of m (dats m 0 c) (A_eq m c 0) (after0 m c) t d
theorem before1 (c : Dev nD) (t : Fin cfg0.N) (d) : (dats m 0 c).before 1 t d = iblk m c 1 t :=
  before_in1_of m (dats m 0 c) (A_eq m c 1) (after1 m c) t d
theorem before2 (c : Dev nD) (t : Fin cfg0.N) (d) : (dats m 0 c).before 2 t d = iblk m c 2 t :=
  before_in2_of m (dats m 0 c) (A_eq m c 2) (after2 m c) t d
theorem before3 (c : Dev nD) (t : Fin cfg0.N) (d) : (dats m 0 c).before 3 t d = iblk m c 3 t :=
  before_in3_of m (dats m 0 c) (A_eq m c 3) (after3 m c) t d
theorem before4 (c : Dev nD) (t : Fin cfg0.N) (d) : (dats m 0 c).before 4 t d = iblk m c 4 t :=
  before_in4_of m (dats m 0 c) (A_eq m c 4) (after4 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The body at any point: the inputs' buffers hold their blocks, so the body's triple applies; the invariant and the
    core's obligations pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4]
  rw [show (dats m 0 c).Φ t.succ = (dats m 0 c).Φ t.castSucc from rfl,
    show (dats m 0 c).owesAt () t.succ = (dats m 0 c).owesAt () t.castSucc from rfl,
    after0, after1, after2, after3, after4, after5]
  iintro ⟨HΦ, Ho, ⟨%d0, H0⟩, ⟨%d1, H1⟩, ⟨%d2, H2⟩, ⟨%d3, H3⟩, ⟨%d4, H4⟩, ⟨%d5, H5⟩⟩
  iapply (sound_kernel c Set.univ _ _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- For any values, from any memory with zero counters: every weakly fair execution of @main terminates, and every
    final state has every array of the pipeline at what the library computes from the proof data and every other
    unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: @main terminates, faults nowhere, and leaves its eight argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (dats m) (A_eq m) (run_main m ρ)

end Cert.KernelIdeal.Hand

end
-- ==== Proof.LibTransposedDot.lean ====
/-
  A matrix product whose right operand is contracted on its LAST axis, read at an index, at the ideal instance.

  For the dimension numbers "rows × contraction times columns × contraction" (`DotDims.transposedRhs M K N`: the
  product x · yᵀ written without a transpose) both the vector unit's matmul into a zero accumulator and the host's
  dot_general are, at output index (a, b), the sum over k of l (a, k) · r (b, k) on the extended reals. The sum over
  the one-axis contraction index is re-indexed by its one coordinate.
-/
import Idealize.ShloMosaic.PureOps.Ideal.Laws
import Idealize.ShloMosaic.Lib.ValueIdx

noncomputable section

open scoped BigOperators

namespace Idealize.ShloMosaic.TransposedDot

open Idealize.ShloMosaic Idealize.ShloMosaic.ValueIdx

theorem lhs0 (M K N : Nat) (i : (⟨2, ![M, N]⟩ : Shape).Idx) (q : (DotDims.transposedRhs M K N).contr.Idx) :
    ((DotDims.transposedRhs M K N).lhsIdx i q 0).val = (i 0).val := by
  unfold DotDims.lhsIdx
  rw [dif_neg (show ¬(0 : Fin 2) ∈ (DotDims.transposedRhs M K N).lhsBatch from List.not_mem_nil),
    dif_pos (show (0 : Fin 2) ∈ (DotDims.transposedRhs M K N).lhsNonContracting from List.mem_singleton.mpr rfl)]
  rfl
theorem lhs1 (M K N : Nat) (i : (⟨2, ![M, N]⟩ : Shape).Idx) (q : (DotDims.transposedRhs M K N).contr.Idx) :
    ((DotDims.transposedRhs M K N).lhsIdx i q 1).val = (q ⟨0, Nat.one_pos⟩).val :=
  (DotDims.transposedRhs M K N).lhsIdx_val_of_single rfl i q
theorem rhs0 (M K N : Nat) (i : (⟨2, ![M, N]⟩ : Shape).Idx) (q : (DotDims.transposedRhs M K N).contr.Idx) :
    ((DotDims.transposedRhs M K N).rhsIdx i q 0).val = (i 1).val := by
  unfold DotDims.rhsIdx
  rw [dif_neg (show ¬(0 : Fin 2) ∈ (DotDims.transposedRhs M K N).rhsBatch from List.not_mem_nil),
    dif_pos (show (0 : Fin 2) ∈ (DotDims.transposedRhs M K N).rhsNonContracting from List.mem_singleton.mpr rfl)]
  rfl
theorem rhs1 (M K N : Nat) (i : (⟨2, ![M, N]⟩ : Shape).Idx) (q : (DotDims.transposedRhs M K N).contr.Idx) :
    ((DotDims.transposedRhs M K N).rhsIdx i q 1).val = (q ⟨0, Nat.one_pos⟩).val :=
  (DotDims.transposedRhs M K N).rhsIdx_val_of_single rfl i q

/-- The contraction sum of such a product at (a, b), over the coordinate `k : Fin K`. -/
theorem sum_transposedRhs (M K N : Nat) {φ₁ φ₂ : FTy} (l : FVec Ideal ⟨2, ![M, K]⟩ φ₁) (r : FVec Ideal ⟨2, ![N, K]⟩ φ₂)
    (a : Fin M) (b : Fin N) :
    ∑ k : (DotDims.transposedRhs M K N).contr.Idx,
        l ((DotDims.transposedRhs M K N).lhsIdx (ix2 a b) k) * r ((DotDims.transposedRhs M K N).rhsIdx (ix2 a b) k)
      = ∑ k : Fin K, l (ix2 a k) * r (ix2 b k) := by
  rw [← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx (ix2 a b) ((contrEquiv1 (DotDims.transposedRhs M K N) K rfl rfl).symm k) = ix2 a k :=
    funext fun d => Fin.ext (by
      match d with
      | ⟨0, _⟩ => exact lhs0 M K N _ _
      | ⟨1, _⟩ => exact (lhs1 M K N _ _).trans hk)
  have er : (DotDims.transposedRhs M K N).rhsIdx (ix2 a b) ((contrEquiv1 (DotDims.transposedRhs M K N) K rfl rfl).symm k) = ix2 b k :=
    funext fun d => Fin.ext (by
      match d with
      | ⟨0, _⟩ => exact rhs0 M K N _ _
      | ⟨1, _⟩ => exact (rhs1 M K N _ _).trans hk)
  rw [el, er]

/-- The vector unit's matmul into the zero accumulator, at (a, b). -/
theorem matmul_transposedRhs {M K N : Nat} {φ₁ φ₂ : FTy} (D : DotDims ⟨2, ![M, K]⟩ ⟨2, ![N, K]⟩ ⟨2, ![M, N]⟩)
    (hD : D = DotDims.transposedRhs M K N) (prec : Option ContractPrecision)
    (l : FVec Ideal ⟨2, ![M, K]⟩ φ₁) (r : FVec Ideal ⟨2, ![N, K]⟩ φ₂) (a : Fin M) (b : Fin N) :
    matmul D prec l r (constant ⟨2, ![M, N]⟩ .f32 0x00000000#32) (ix2 a b) = ∑ k : Fin K, l (ix2 a k) * r (ix2 b k) := by
  subst hD
  exact (Ideal.matmul_constant_zero_apply _ prec l r (ix2 a b)).trans (sum_transposedRhs M K N l r a b)

/-- The host's dot_general, at (a, b). -/
theorem dotGeneral_transposedRhs {M K N : Nat} {φ₁ φ₂ : FTy} (D : DotDims ⟨2, ![M, K]⟩ ⟨2, ![N, K]⟩ ⟨2, ![M, N]⟩)
    (hD : D = DotDims.transposedRhs M K N) (prec : Option ContractPrecision)
    (l : FVec Ideal ⟨2, ![M, K]⟩ φ₁) (r : FVec Ideal ⟨2, ![N, K]⟩ φ₂) (a : Fin M) (b : Fin N) :
    Host.dotGeneral (F := Ideal) D prec l r (ix2 a b) = ∑ k : Fin K, l (ix2 a k) * r (ix2 b k) := by
  subst hD
  simp only [Host.dotGeneral]
  exact (Ideal.dotGeneral_apply _ prec _ l r (ix2 a b)).trans (sum_transposedRhs M K N l r a b)

end Idealize.ShloMosaic.TransposedDot

end
-- ==== Proof.Cell.lean ====
/-
  One step of a gated recurrent cell, on the extended reals.

  A batch row carries an input row x and a state row h, both of length 1024. Three weight matrices act on x, stacked
  as the row blocks of one [3072, 1024] matrix Wx, and two act on h, stacked in a [2048, 1024] matrix Wh; a sixth,
  Wu, is [1024, 1024]. With σ the logistic function,
    z  = σ (Wx[q] · x + Wh[q] · h)                         the update gate at output coordinate q,
    r  = σ (Wx[1024 + j] · x + Wh[1024 + j] · h)           the reset gate at coordinate j,
    c  = tanh (Σ_j (r_j h_j) Wu[q, j] + Wx[2048 + q] · x)  the candidate state,
  and the new state is  z h_q + (1 − z) c.  Every dot product contracts a matrix ROW with the batch row, which is how
  "times the transposed matrix" reads without a transpose.
-/
import Idealize.ShloMosaic.PureOps.Ideal
import Idealize.ShloMosaic.Lib.IdealHost
import Idealize.ShloMosaic.Lib.ValueIdx

noncomputable section

open scoped BigOperators

namespace Cert.Recurrent

open Idealize.ShloMosaic Idealize.ShloMosaic.ValueIdx

/-- Row `o + q` of a stacked matrix of `N` rows: row `q` of the block that starts at row `o`. -/
def lift (N o : ℕ) (h : o + 1024 ≤ N) (q : Fin 1024) : Fin N := ⟨o + q.val, by have := q.isLt; omega⟩

/-- The update gate of a batch row at coordinate `q`. -/
def update (xr hr : Fin 1024 → EReal) (Wx : Fin 3072 → Fin 1024 → EReal) (Wh : Fin 2048 → Fin 1024 → EReal) (q : Fin 1024) : EReal :=
  Ideal.logistic ((∑ k : Fin 1024, xr k * Wx (lift 3072 0 (by decide) q) k) + (∑ k : Fin 1024, hr k * Wh (lift 2048 0 (by decide) q) k))

/-- The reset gate of a batch row at coordinate `j`. -/
def reset (xr hr : Fin 1024 → EReal) (Wx : Fin 3072 → Fin 1024 → EReal) (Wh : Fin 2048 → Fin 1024 → EReal) (j : Fin 1024) : EReal :=
  Ideal.logistic ((∑ k : Fin 1024, xr k * Wx (lift 3072 1024 (by decide) j) k) + (∑ k : Fin 1024, hr k * Wh (lift 2048 1024 (by decide) j) k))

/-- The candidate state of a batch row at coordinate `q`. -/
def candidate (xr hr : Fin 1024 → EReal) (Wx : Fin 3072 → Fin 1024 → EReal) (Wh : Fin 2048 → Fin 1024 → EReal)
    (Wu : Fin 1024 → Fin 1024 → EReal) (q : Fin 1024) : EReal :=
  Ideal.tanh ((∑ j : Fin 1024, (reset xr hr Wx Wh j * hr j) * Wu q j) + (∑ k : Fin 1024, xr k * Wx (lift 3072 2048 (by decide) q) k))

/-- The new state of a batch row at coordinate `q`: the gate's blend of the old state and the candidate. -/
def cell (xr hr : Fin 1024 → EReal) (Wx : Fin 3072 → Fin 1024 → EReal) (Wh : Fin 2048 → Fin 1024 → EReal)
    (Wu : Fin 1024 → Fin 1024 → EReal) (q : Fin 1024) : EReal :=
  update xr hr Wx Wh q * hr q + (1 - update xr hr Wx Wh q) * candidate xr hr Wx Wh Wu q

/-- Equal rows and equal coordinates give equal new states. -/
theorem cell_congr {xr xr' hr hr' : Fin 1024 → EReal} {Wx Wx' : Fin 3072 → Fin 1024 → EReal} {Wh Wh' : Fin 2048 → Fin 1024 → EReal}
    {Wu Wu' : Fin 1024 → Fin 1024 → EReal} {q q' : Fin 1024} (hx : xr = xr') (hh : hr = hr') (hWx : Wx = Wx') (hWh : Wh = Wh')
    (hWu : Wu = Wu') (hq : q = q') : cell xr hr Wx Wh Wu q = cell xr' hr' Wx' Wh' Wu' q' := by
  subst hx hh hWx hWh hWu hq; rfl

/-- The new state of batch row `P` at coordinate `q`, from the two batch arrays and the three weight arrays. -/
def cellAt (x h : (⟨2, ![8192, 1024]⟩ : Shape).Idx → EReal) (Wx : (⟨2, ![3072, 1024]⟩ : Shape).Idx → EReal)
    (Wh : (⟨2, ![2048, 1024]⟩ : Shape).Idx → EReal) (Wu : (⟨2, ![1024, 1024]⟩ : Shape).Idx → EReal) (P : Fin 8192) (q : Fin 1024) : EReal :=
  cell (fun k => x (ix2 P k)) (fun k => h (ix2 P k)) (fun j k => Wx (ix2 j k)) (fun j k => Wh (ix2 j k)) (fun j k => Wu (ix2 j k)) q

/-- The whole array of new states. -/
def newState (x h : (⟨2, ![8192, 1024]⟩ : Shape).Idx → EReal) (Wx : (⟨2, ![3072, 1024]⟩ : Shape).Idx → EReal)
    (Wh : (⟨2, ![2048, 1024]⟩ : Shape).Idx → EReal) (Wu : (⟨2, ![1024, 1024]⟩ : Shape).Idx → EReal) :
    (⟨2, ![8192, 1024]⟩ : Shape).Idx → EReal :=
  fun i => cellAt x h Wx Wh Wu ⟨(i 0).val, idx2_lt0 i⟩ ⟨(i 1).val, idx2_lt1 i⟩

theorem newState_ix2 (x h : (⟨2, ![8192, 1024]⟩ : Shape).Idx → EReal) (Wx : (⟨2, ![3072, 1024]⟩ : Shape).Idx → EReal)
    (Wh : (⟨2, ![2048, 1024]⟩ : Shape).Idx → EReal) (Wu : (⟨2, ![1024, 1024]⟩ : Shape).Idx → EReal) (P : Fin 8192) (q : Fin 1024) :
    newState x h Wx Wh Wu (ix2 P q) = cellAt x h Wx Wh Wu P q := rfl

end Cert.Recurrent

end
-- ==== Proof.BandValue.lean ====
/-
  What the body writes into a band of 128 rows, entry by entry, on the extended reals.

  Each of the four bands' values is spelt a little differently by the body (some intermediate products are carried
  from one band's statements into the next band's), but each is the same arithmetic on the band's own rows of the two
  batch blocks and on the three weight matrices: at row p and column q of the band it is the recurrent cell's new state
  for the batch row p at coordinate q. A product "rows times the rows of a matrix" read at (a, b) is the sum over k of
  the left row a and the right row b; a column slice of 1024 columns starting at column o read at (p, q) is the operand
  at (p, o + q); narrowing to the short float format and the cast of a matrix to its own shape change nothing.
-/
import proofs.«165459_j34943853920831_2_alg».proof.Proof.Gen.KernelIdeal.Skeleton
import proofs.«165459_j34943853920831_2_alg».proof.Proof.LibTransposedDot
import proofs.«165459_j34943853920831_2_alg».proof.Proof.Cell
import Idealize.ShloMosaic.Lib.Pipeline.Value
import Idealize.ShloMosaic.Lib.ValueIdx
import Idealize.ShloMosaic.Lib.IdealHost
import Idealize.ShloMosaic.PureOps.Ideal.Laws

noncomputable section

open scoped BigOperators

namespace Cert.KernelIdeal.Band

open Cert.KernelIdeal Cert.KernelIdeal.Gen Idealize.ShloMosaic Idealize.ShloMosaic.ValueIdx Cert.Recurrent

/-! ## The operations that are not entrywise, read at an entry -/

theorem logistic_at {s : Shape} {φ : FTy} (v : FVec Ideal s φ) (i : s.Idx) : logistic v i = Ideal.logistic (v i) := rfl
theorem tanh_at {s : Shape} {φ : FTy} (v : FVec Ideal s φ) (i : s.Idx) : tanh v i = Ideal.tanh (v i) := rfl
theorem one_word : Scalar.ofBits (F := Ideal) .f32 0x3F800000#32 = (1 : EReal) := Ideal.ofBits_one_f32

/-- The batch band's rows against the rows of the stacked input weights. -/
theorem dot_x (l : FVec Ideal S128x1024 .bf16) (r : FVec Ideal S3072x1024 .bf16) (a : Fin 128) (b : Fin 3072) :
    matmul dot_S128x1024_S3072x1024_S128x3072_1_1_0_0_n_n none l r (constant S128x3072 .f32 0x00000000#32) (ix2 a b)
      = ∑ k : Fin 1024, l (ix2 a k) * r (ix2 b k) :=
  TransposedDot.matmul_transposedRhs _ rfl none l r a b
/-- The batch band's rows against the rows of the stacked state weights. -/
theorem dot_h (l : FVec Ideal S128x1024 .bf16) (r : FVec Ideal S2048x1024 .bf16) (a : Fin 128) (b : Fin 2048) :
    matmul dot_S128x1024_S2048x1024_S128x2048_1_1_0_0_n_n none l r (constant S128x2048 .f32 0x00000000#32) (ix2 a b)
      = ∑ k : Fin 1024, l (ix2 a k) * r (ix2 b k) :=
  TransposedDot.matmul_transposedRhs _ rfl none l r a b
/-- The gated state band's rows against the rows of the candidate weights. -/
theorem dot_u (l : FVec Ideal S128x1024 .bf16) (r : FVec Ideal S1024x1024 .bf16) (a : Fin 128) (b : Fin 1024) :
    matmul dot_S128x1024_S1024x1024_S128x1024_1_1_0_0_n_n none l r (constant S128x1024 .f32 0x00000000#32) (ix2 a b)
      = ∑ k : Fin 1024, l (ix2 a k) * r (ix2 b k) :=
  TransposedDot.matmul_transposedRhs _ rfl none l r a b

/-- 1024 columns of a [128, 3072] array starting at column `o`, read at (p, q). -/
theorem cols_x (o : ℕ) (ho : o + 1024 ≤ 3072) (X : FVec Ideal S128x3072 .f32) (h : S128x3072.Slices ![0, o] S128x1024)
    (p : Fin 128) (q : Fin 1024) :
    extractStridedSlice S128x1024 ![0, o] X h (ix2 p q) = X (ix2 p (lift 3072 o ho q)) :=
  extractStridedSlice_apply ![0, o] X h (ix2 p q) (ix2 p (lift 3072 o ho q)) fun d => by
    match d with
    | ⟨0, _⟩ => exact (Nat.zero_add _).symm
    | ⟨1, _⟩ => rfl
/-- 1024 columns of a [128, 2048] array starting at column `o`, read at (p, q). -/
theorem cols_h (o : ℕ) (ho : o + 1024 ≤ 2048) (X : FVec Ideal S128x2048 .f32) (h : S128x2048.Slices ![0, o] S128x1024)
    (p : Fin 128) (q : Fin 1024) :
    extractStridedSlice S128x1024 ![0, o] X h (ix2 p q) = X (ix2 p (lift 2048 o ho q)) :=
  extractStridedSlice_apply ![0, o] X h (ix2 p q) (ix2 p (lift 2048 o ho q)) fun d => by
    match d with
    | ⟨0, _⟩ => exact (Nat.zero_add _).symm
    | ⟨1, _⟩ => rfl

/-! ## The four bands -/

variable (xb hb : Vec Ideal S128x1024 .f32) (wx : Vec Ideal S3072x1024 .bf16) (wh : Vec Ideal S2048x1024 .bf16)
  (wu : Vec Ideal S1024x1024 .bf16)

/-- The recurrent cell on row `p` of a band of the two batch blocks. -/
abbrev bandCell (p : Fin 128) (q : Fin 1024) : EReal :=
  cell (fun k => xb (ix2 p k)) (fun k => hb (ix2 p k)) (fun j k => wx (ix2 j k)) (fun j k => wh (ix2 j k)) (fun j k => wu (ix2 j k)) q

theorem first_band (p : Fin 128) (q : Fin 1024) : k0_pay2 xb hb wx wh wu (ix2 p q) = bandCell xb hb wx wh wu p q := by
  unfold k0_pay2 bandCell cell update candidate reset
  simp only [addf_apply, mulf_apply, subf_apply, truncf_apply, broadcast_apply, logistic_at, tanh_at, one_word, shapeCast_self,
    cols_x 0 (by decide), cols_x 1024 (by decide), cols_x 2048 (by decide), cols_h 0 (by decide), cols_h 1024 (by decide),
    dot_x, dot_h, dot_u]

theorem second_band (p : Fin 128) (q : Fin 1024) :
    k0_pay5 hb (k0_pay3 xb) (k0_pay4 hb) wx wh wu (ix2 p q) = bandCell xb hb wx wh wu p q := by
  unfold k0_pay5 k0_pay3 k0_pay4 bandCell cell update candidate reset
  simp only [addf_apply, mulf_apply, subf_apply, truncf_apply, broadcast_apply, logistic_at, tanh_at, one_word, shapeCast_self,
    cols_x 0 (by decide), cols_x 1024 (by decide), cols_x 2048 (by decide), cols_h 0 (by decide), cols_h 1024 (by decide),
    dot_x, dot_h, dot_u]

theorem third_band (p : Fin 128) (q : Fin 1024) :
    k0_pay9 hb (k0_pay6 xb wx) (k0_pay7 hb wh) (k0_pay8 xb wx) wu (ix2 p q) = bandCell xb hb wx wh wu p q := by
  unfold k0_pay9 k0_pay8 k0_pay6 k0_pay7 bandCell cell update candidate reset
  simp only [addf_apply, mulf_apply, subf_apply, truncf_apply, broadcast_apply, logistic_at, tanh_at, one_word, shapeCast_self,
    cols_x 0 (by decide), cols_x 1024 (by decide), cols_x 2048 (by decide), cols_h 0 (by decide), cols_h 1024 (by decide),
    dot_x, dot_h, dot_u]

theorem fourth_band (p : Fin 128) (q : Fin 1024) :
    k0_pay1 hb (k0_pay10 xb wx) (k0_pay12 xb hb wx wh) (k0_pay13 xb hb wx wh) wu (ix2 p q) = bandCell xb hb wx wh wu p q := by
  unfold k0_pay1 k0_pay12 k0_pay13 k0_pay10 k0_pay11 bandCell cell update candidate reset
  simp only [addf_apply, mulf_apply, subf_apply, truncf_apply, broadcast_apply, logistic_at, tanh_at, one_word, shapeCast_self,
    cols_x 0 (by decide), cols_x 1024 (by decide), cols_x 2048 (by decide), cols_h 0 (by decide), cols_h 1024 (by decide),
    dot_x, dot_h, dot_u]

end Cert.KernelIdeal.Band

end
-- ==== Proof.WholeValue.lean ====
/-
  What the result array holds after the run: the array of new states of the recurrent cell.

  A block of the result is written in four bands; each band's value at (p, q) is the cell on row p of the same band of
  the two batch blocks, so the block at (r, q) is the cell on row r of the two batch blocks. Grid point t stages rows
  512 t … 512 t + 511 of the two batch arrays and of the result, and the three weight matrices whole, so what point t
  writes back is block t of one function of the arrays as the region finds them, and the sixteen blocks cover the
  result. The weights the region finds are the two stacks and the sixth matrix, narrowed to the short format, which
  changes nothing on the extended reals.
-/
import proofs.«165459_j34943853920831_2_alg».proof.Proof.FrameKI
import proofs.«165459_j34943853920831_2_alg».proof.Proof.BandValue
import Idealize.ShloMosaic.Lib.Pipeline.Value
import Idealize.ShloMosaic.Lib.StableHlo.Run
import Idealize.ShloMosaic.Lib.Tactic

noncomputable section

open scoped BigOperators

namespace Cert.KernelIdeal.Whole

open Cert.KernelIdeal Cert.KernelIdeal.Gen Cert.KernelIdeal.Hand Cert.KernelIdeal.Band Cert.Recurrent
open Idealize.ShloMosaic Idealize.ShloMosaic.TcCoe Idealize.ShloMosaic.ValueIdx Idealize.SL.Sem
open Idealize.ShloMosaic.Pipeline (Dat)

theorem hz : (![0, 0] : Fin 2 → Nat) = fun _ => 0 := funext fun a => by fin_cases a <;> rfl

/-! ## A block of the result, from the five input blocks -/

/-- The cell on row `y 0` of the two batch blocks, at coordinate `y 1`. -/
def blockCell (x0 x1 : Vec Ideal S512x1024 .f32) (x2 : Vec Ideal S3072x1024 .bf16) (x3 : Vec Ideal S2048x1024 .bf16)
    (x4 : Vec Ideal S1024x1024 .bf16) : S512x1024.Idx → EReal :=
  fun y => cell (fun k => x0 (ix2 ⟨(y 0).val, idx2_lt0 y⟩ k)) (fun k => x1 (ix2 ⟨(y 0).val, idx2_lt0 y⟩ k))
    (fun j k => x2 (ix2 j k)) (fun j k => x3 (ix2 j k)) (fun j k => x4 (ix2 j k)) ⟨(y 1).val, idx2_lt1 y⟩

/-- Row `p` of the band that starts at row `o` of a block is row `o + p` of the block. -/
theorem ld_band (o : ℕ) (inb : ∀ a, (![o, 0] : Fin 2 → ℕ) a + S128x1024.size a ≤ S512x1024.size a) (X : Vec Ideal S512x1024 .f32)
    (p : Fin 128) (k : Fin 1024) (r : Fin 512) (hr : r.val = o + p.val) :
    View.ld X (Rect.unit (s := S512x1024) ![o, 0] S128x1024.size inb) (ix2 p k) = X (ix2 r k) := by
  show X ((Rect.unit (s := S512x1024) ![o, 0] S128x1024.size inb).idx (ix2 p k)) = _
  refine congrArg X (funext fun d => Fin.ext ?_)
  match d with
  | ⟨0, _⟩ => show o + 1 * p.val = r.val; omega
  | ⟨1, _⟩ => show 0 + 1 * k.val = k.val; omega

/-- A band's value that is the cell on the band's rows is the block's cell function read through the band. -/
theorem piece_eq (o : ℕ) (inb : ∀ a, (![o, 0] : Fin 2 → ℕ) a + S128x1024.size a ≤ S512x1024.size a)
    (x0 x1 : Vec Ideal S512x1024 .f32) (x2 : Vec Ideal S3072x1024 .bf16) (x3 : Vec Ideal S2048x1024 .bf16) (x4 : Vec Ideal S1024x1024 .bf16)
    (pay : Vec Ideal S128x1024 .f32)
    (hpay : ∀ p q, pay (ix2 p q) = bandCell (View.ld x0 (Rect.unit (s := S512x1024) ![o, 0] S128x1024.size inb))
      (View.ld x1 (Rect.unit (s := S512x1024) ![o, 0] S128x1024.size inb)) (View.ld x2 wholeWx) (View.ld x3 wholeWh) (View.ld x4 wholeWu) p q)
    (x : S128x1024.Idx) :
    pay x = blockCell x0 x1 x2 x3 x4 ((Rect.unit (s := S512x1024) ![o, 0] S128x1024.size inb).emb x) := by
  obtain ⟨p, q, rfl⟩ : ∃ (p : Fin 128) (q : Fin 1024), x = ix2 p q := ⟨x 0, x 1, eq_ix2 x⟩
  rw [hpay]
  unfold blockCell
  refine cell_congr (funext fun k => ld_band o inb x0 p k _ ?_) (funext fun k => ld_band o inb x1 p k _ ?_) ?_ ?_ ?_ (Fin.ext ?_)
  · show o + 1 * p.val = o + p.val; omega
  · show o + 1 * p.val = o + p.val; omega
  · rw [View.ld_unit_zero hz]
  · rw [View.ld_unit_zero hz]
  · rw [View.ld_unit_zero hz]
  · show q.val = 0 + 1 * q.val; omega

/-- The block the body leaves, entry by entry. -/
theorem outBlock_apply (x0 x1 : Vec Ideal S512x1024 .f32) (x2 : Vec Ideal S3072x1024 .bf16) (x3 : Vec Ideal S2048x1024 .bf16)
    (x4 : Vec Ideal S1024x1024 .bf16) (y : S512x1024.Idx) : outBlock x0 x1 x2 x3 x4 y = blockCell x0 x1 x2 x3 x4 y := by
  unfold outBlock
  refine View.canon_apply_of_pieces (Val := Elt Ideal) (S := S512x1024) (e := .f32) (blockCell x0 x1 x2 x3 x4) _ ?_ y (bands_cover _ _ _ _ y)
  intro pc hpc
  simp only [List.mem_cons, List.not_mem_nil, or_false] at hpc
  rcases hpc with rfl | rfl | rfl | rfl
  · exact piece_eq 384 inb_S512x1024_S128x1024_384_0 x0 x1 x2 x3 x4 _
      (fun p q => fourth_band (View.ld x0 band3) (View.ld x1 band3) (View.ld x2 wholeWx) (View.ld x3 wholeWh) (View.ld x4 wholeWu) p q)
  · exact piece_eq 256 inb_S512x1024_S128x1024_256_0 x0 x1 x2 x3 x4 _
      (fun p q => third_band (View.ld x0 band2) (View.ld x1 band2) (View.ld x2 wholeWx) (View.ld x3 wholeWh) (View.ld x4 wholeWu) p q)
  · exact piece_eq 128 inb_S512x1024_S128x1024_128_0 x0 x1 x2 x3 x4 _
      (fun p q => second_band (View.ld x0 band1) (View.ld x1 band1) (View.ld x2 wholeWx) (View.ld x3 wholeWh) (View.ld x4 wholeWu) p q)
  · exact piece_eq 0 inb_S512x1024_S128x1024_0_0 x0 x1 x2 x3 x4 _
      (fun p q => first_band (View.ld x0 band0) (View.ld x1 band0) (View.ld x2 wholeWx) (View.ld x3 wholeWh) (View.ld x4 wholeWu) p q)

/-! ## The blocks as parts of the arrays -/

variable (m : (ℓ : Loc nD τ sig) → Buf (Elt Ideal) ℓ) (ρ : Dev nD → PrngReg)

/-- The block indices, decided over the sixteen points: the two batch arrays and the result move down one block of
    rows per point, the weights stay. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The arrays as the region finds them, typed as plain arrays of extended reals. -/
abbrev foundX (c : Dev nD) : S8192x1024.Idx → EReal := V m c main_arg0
abbrev foundH (c : Dev nD) : S8192x1024.Idx → EReal := V m c main_arg1
abbrev foundWx (c : Dev nD) : S3072x1024.Idx → EReal := V m c main_v1
abbrev foundWh (c : Dev nD) : S2048x1024.Idx → EReal := V m c main_v3
abbrev foundWu (c : Dev nD) : S1024x1024.Idx → EReal := V m c main_v4

theorem read0 (c : Dev nD) (t : Fin cfg0.N) (z : S512x1024.Idx) (i : S8192x1024.Idx)
    (h0 : (i 0).val = t.val * 512 + (z 0).val) (h1 : (i 1).val = (z 1).val) :
    (iblk m c 0 t : Vec Ideal S512x1024 .f32) z = foundX m c i := by
  obtain ⟨e0, e1, -⟩ := idx_facts t
  show foundX m c (((cfg0.win 0).blk t).view.emb z) = _
  refine congrArg (foundX m c) (funext fun a => Fin.ext ?_)
  match a with
  | ⟨0, _⟩ => show win0_0.index t (0 : Fin 2) * 512 + 1 * (z 0).val = (i 0).val; rw [e0, h0]; omega
  | ⟨1, _⟩ => show win0_0.index t (1 : Fin 2) * 1024 + 1 * (z 1).val = (i 1).val; rw [e1, h1]; omega

theorem read1 (c : Dev nD) (t : Fin cfg0.N) (z : S512x1024.Idx) (i : S8192x1024.Idx)
    (h0 : (i 0).val = t.val * 512 + (z 0).val) (h1 : (i 1).val = (z 1).val) :
    (iblk m c 1 t : Vec Ideal S512x1024 .f32) z = foundH m c i := by
  obtain ⟨-, -, e0, e1, -⟩ := idx_facts t
  show foundH m c (((cfg0.win 1).blk t).view.emb z) = _
  refine congrArg (foundH m c) (funext fun a => Fin.ext ?_)
  match a with
  | ⟨0, _⟩ => show win0_1.index t (0 : Fin 2) * 512 + 1 * (z 0).val = (i 0).val; rw [e0, h0]; omega
  | ⟨1, _⟩ => show win0_1.index t (1 : Fin 2) * 1024 + 1 * (z 1).val = (i 1).val; rw [e1, h1]; omega

theorem read2 (c : Dev nD) (t : Fin cfg0.N) (z : S3072x1024.Idx) :
    (iblk m c 2 t : Vec Ideal S3072x1024 .bf16) z = foundWx m c z := by
  obtain ⟨-, -, -, -, e0, e1, -⟩ := idx_facts t
  show foundWx m c (((cfg0.win 2).blk t).view.emb z) = _
  refine congrArg (foundWx m c) (funext fun a => Fin.ext ?_)
  match a with
  | ⟨0, _⟩ => show win0_2.index t (0 : Fin 2) * 3072 + 1 * (z 0).val = (z 0).val; rw [e0]; omega
  | ⟨1, _⟩ => show win0_2.index t (1 : Fin 2) * 1024 + 1 * (z 1).val = (z 1).val; rw [e1]; omega

theorem read3 (c : Dev nD) (t : Fin cfg0.N) (z : S2048x1024.Idx) :
    (iblk m c 3 t : Vec Ideal S2048x1024 .bf16) z = foundWh m c z := by
  obtain ⟨-, -, -, -, -, -, e0, e1, -⟩ := idx_facts t
  show foundWh m c (((cfg0.win 3).blk t).view.emb z) = _
  refine congrArg (foundWh m c) (funext fun a => Fin.ext ?_)
  match a with
  | ⟨0, _⟩ => show win0_3.index t (0 : Fin 2) * 2048 + 1 * (z 0).val = (z 0).val; rw [e0]; omega
  | ⟨1, _⟩ => show win0_3.index t (1 : Fin 2) * 1024 + 1 * (z 1).val = (z 1).val; rw [e1]; omega

theorem read4 (c : Dev nD) (t : Fin cfg0.N) (z : S1024x1024.Idx) :
    (iblk m c 4 t : Vec Ideal S1024x1024 .bf16) z = foundWu m c z := by
  obtain ⟨-, -, -, -, -, -, -, -, e0, e1, -⟩ := idx_facts t
  show foundWu m c (((cfg0.win 4).blk t).view.emb z) = _
  refine congrArg (foundWu m c) (funext fun a => Fin.ext ?_)
  match a with
  | ⟨0, _⟩ => show win0_4.index t (0 : Fin 2) * 1024 + 1 * (z 0).val = (z 0).val; rw [e0]; omega
  | ⟨1, _⟩ => show win0_4.index t (1 : Fin 2) * 1024 + 1 * (z 1).val = (z 1).val; rw [e1]; omega

/-- The array of new states from the arrays as the region finds them. -/
abbrev found (c : Dev nD) : S8192x1024.Idx → EReal :=
  newState (foundX m c) (foundH m c) (foundWx m c) (foundWh m c) (foundWu m c)

/-- What point `t` writes back is block `t` of the array of new states. -/
theorem flushed_eq (c : Dev nD) (t : Fin cfg0.N) :
    (dats m 0 c).flushed 5 t = ((cfg0.win 5).blk t).view.read (Elt Ideal) (found m c) := by
  show (cfg0.win 5).cut (grid0.coords t) ((dats m 0 c).after 5 t) = _
  rw [after5]
  funext y
  show outBlock (iblk m c 0 t) (iblk m c 1 t) (iblk m c 2 t) (iblk m c 3 t) (iblk m c 4 t) y
    = found m c (((cfg0.win 5).blk t).view.emb y)
  rw [outBlock_apply]
  unfold blockCell found newState cellAt
  obtain ⟨-, -, -, -, -, -, -, -, -, -, e0, e1⟩ := idx_facts t
  refine cell_congr (funext fun k => read0 m c t _ _ ?_ ?_) (funext fun k => read1 m c t _ _ ?_ ?_)
    (funext fun j => funext fun k => read2 m c t _) (funext fun j => funext fun k => read3 m c t _)
    (funext fun j => funext fun k => read4 m c t _) (Fin.ext ?_)
  · show win0_5.index t (0 : Fin 2) * 512 + 1 * (y 0).val = t.val * 512 + (y 0).val; rw [e0]; omega
  · rfl
  · show win0_5.index t (0 : Fin 2) * 512 + 1 * (y 0).val = t.val * 512 + (y 0).val; rw [e0]; omega
  · rfl
  · show (y 1).val = win0_5.index t (1 : Fin 2) * 1024 + 1 * (y 1).val; rw [e1]; omega

/-- An index of the result is in point `t`'s block iff each coordinate is in the block's range on its axis. -/
theorem mem_blk (t : Fin cfg0.N) (i : S8192x1024.Idx) :
    i ∈ ((cfg0.win 5).blk t).view.set ↔ ∀ a : Fin 2, win0_5.index t a * S512x1024.size a ≤ (i a).val
      ∧ (i a).val < win0_5.index t a * S512x1024.size a + S512x1024.size a := by
  show i ∈ ((View.whole main_v5).slice (win0_5.rect t)).set ↔ _
  rw [View.set_slice_whole, Rect.mem_set_unit]
  exact Iff.rfl

/-- Every index of the result is in some point's block: row `r` is in block `r / 512`. -/
theorem covered (i : S8192x1024.Idx) : ∃ t : Fin cfg0.N, (cfg0.win 5).flush t = true ∧ i ∈ ((cfg0.win 5).blk t).view.set := by
  have hN : cfg0.N = 16 := N_0
  have hi0 : (i 0).val < 8192 := (i 0).isLt
  have hi1 : (i 1).val < 1024 := (i 1).isLt
  let t : Fin cfg0.N := ⟨(i 0).val / 512, by rw [hN]; omega⟩
  have ht : t.val = (i 0).val / 512 := rfl
  obtain ⟨-, -, -, -, -, -, -, -, -, -, e0, e1⟩ := idx_facts t
  refine ⟨t, flush0_5 t, ?_⟩
  rw [mem_blk]
  intro a
  match a with
  | ⟨0, _⟩ =>
    show win0_5.index t (0 : Fin 2) * 512 ≤ (i 0).val ∧ (i 0).val < win0_5.index t (0 : Fin 2) * 512 + 512
    rw [e0, ht]; omega
  | ⟨1, _⟩ =>
    show win0_5.index t (1 : Fin 2) * 1024 ≤ (i 1).val ∧ (i 1).val < win0_5.index t (1 : Fin 2) * 1024 + 1024
    rw [e1]; omega

/-- The result array after the run, from the arrays as the region finds them. -/
theorem final_found (c : Dev nD) : (dats m 0 c).arrAt 5 cfg0.N = found m c :=
  (dats m 0 c).arrAt_eq_of_cover 5 (found m c) (fun t _ => flushed_eq m c t) covered

/-! ## The arrays the region finds -/

/-- The two stacks of weight matrices. -/
abbrev stackX (a2 a4 a7 : S1024x1024.Idx → EReal) : S3072x1024.Idx → EReal :=
  concatenate S3072x1024 0 [⟨S1024x1024, a2⟩, ⟨S1024x1024, a4⟩, ⟨S1024x1024, a7⟩] concatenates_S1024x1024_S1024x1024_S1024x1024_S3072x1024_d0
abbrev stackH (a3 a5 : S1024x1024.Idx → EReal) : S2048x1024.Idx → EReal :=
  concatenate S2048x1024 0 [⟨S1024x1024, a3⟩, ⟨S1024x1024, a5⟩] concatenates_S1024x1024_S1024x1024_S2048x1024_d0

theorem foundWx_eq (c : Dev nD) : foundWx m c = stackX (m ((c : Thread nD τ).loc main_arg2)) (m ((c : Thread nD τ).loc main_arg4))
    (m ((c : Thread nD τ).loc main_arg7)) := by
  dsimp only [foundWx, V, hostOps0]; after_results; rfl
theorem foundWh_eq (c : Dev nD) : foundWh m c = stackH (m ((c : Thread nD τ).loc main_arg3)) (m ((c : Thread nD τ).loc main_arg5)) := by
  dsimp only [foundWh, V, hostOps0]; after_results; rfl
theorem foundWu_eq (c : Dev nD) : foundWu m c = (m ((c : Thread nD τ).loc main_arg6) : S1024x1024.Idx → EReal) := by
  dsimp only [foundWu, V, hostOps0]; after_results; rfl

/-- The array of new states from the launch memory. -/
abbrev launched (c : Dev nD) : S8192x1024.Idx → EReal :=
  newState (m ((c : Thread nD τ).loc main_arg0)) (m ((c : Thread nD τ).loc main_arg1))
    (stackX (m ((c : Thread nD τ).loc main_arg2)) (m ((c : Thread nD τ).loc main_arg4)) (m ((c : Thread nD τ).loc main_arg7)))
    (stackH (m ((c : Thread nD τ).loc main_arg3)) (m ((c : Thread nD τ).loc main_arg5))) (m ((c : Thread nD τ).loc main_arg6))

theorem found_eq (c : Dev nD) : found m c = launched m c := by
  unfold found launched
  rw [foundWx_eq, foundWh_eq, foundWu_eq, show foundX m c = (m ((c : Thread nD τ).loc main_arg0) : S8192x1024.Idx → EReal) from V_main_arg0 m c,
    show foundH m c = (m ((c : Thread nD τ).loc main_arg1) : S8192x1024.Idx → EReal) from V_main_arg1 m c]

/-! ## The run, read -/

/-- Every weakly fair execution of @main terminates with the result array at the array of new states of the launch
    memory and the eight argument arrays unchanged. -/
theorem run : θ_run defs (onTc (τ := τ) (main (F := Ideal))) ⟨m, fun _ => 0, ρ⟩ fun r => ∀ c : Dev nD,
      r.2.mem ((c.tc : Thread nD τ).loc main_v5) = launched m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun r h c => ⟨((h c).1 5).trans ((final_found m c).trans (found_eq m c)), args_kept m (dats m) (A_eq m) r h c⟩)
    (run_main m ρ)

end Cert.KernelIdeal.Whole

end
-- ==== Proof.RefIsCell.lean ====
/-
  The reference program's result, entry by entry, is the recurrent cell's new state.

  The reference stacks the input weights and the state weights exactly as the kernel's program does, transposes each
  stack, multiplies the batch arrays by the transposed stacks, and cuts the products into the gates' column blocks. An entry of "the
  batch array times a transposed stack" is the sum over k of a batch row and a ROW of the stack, and a column block
  starting at column o of such a product reads row o + q of the stack. The reference spells the logistic function as
  one over one plus the exponential of the negation, which is the same function on the extended reals.
-/
import proofs.«165459_j34943853920831_2_alg».proof.Proof.Gen.ReferenceIdeal.Read
import proofs.«165459_j34943853920831_2_alg».proof.Proof.Cell
import Idealize.ShloMosaic.Lib.IdealHost

noncomputable section

open scoped BigOperators

namespace Cert.ReferenceIdeal.IsCell

open Cert.ReferenceIdeal Cert.ReferenceIdeal.Gen Cert.ReferenceIdeal.Read Idealize.ShloMosaic Idealize.ShloMosaic.ValueIdx Cert.Recurrent

variable (x0 x1 : (⟨S8192x1024, .f32⟩ : BufTy).Contents (Elt Ideal)) (x2 x3 x4 x5 x6 x7 : (⟨S1024x1024, .f32⟩ : BufTy).Contents (Elt Ideal))

/-- The input array times the transposed stack of input weights, at (P, J): batch row P against row J of the stack. -/
theorem xproj_at (P : Fin 8192) (J : Fin 3072) :
    val_main_v2 (F := Ideal) x0 x2 x4 x7 (ix2 P J) = ∑ k : Fin 1024, x0 (ix2 P k) * val_main_v0 (F := Ideal) x2 x4 x7 (ix2 J k) := by
  rw [val_main_v2_apply]
  refine Finset.sum_congr rfl fun k _ => ?_
  rw [val_main_v1_apply]
  refine congrArg₂ (· * ·) (congrArg x0 (funext fun a => Fin.ext ?_)) (congrArg (val_main_v0 (F := Ideal) x2 x4 x7) (funext fun a => Fin.ext ?_))
  · match a with
    | ⟨0, _⟩ => rfl
    | ⟨1, _⟩ => rfl
  · match a with
    | ⟨0, _⟩ => rfl
    | ⟨1, _⟩ => rfl

/-- The state array times the transposed stack of state weights, at (P, J). -/
theorem hproj_at (P : Fin 8192) (J : Fin 2048) :
    val_main_v5 (F := Ideal) x1 x3 x5 (ix2 P J) = ∑ k : Fin 1024, x1 (ix2 P k) * val_main_v3 (F := Ideal) x3 x5 (ix2 J k) := by
  rw [val_main_v5_apply]
  refine Finset.sum_congr rfl fun k _ => ?_
  rw [val_main_v4_apply]
  refine congrArg₂ (· * ·) (congrArg x1 (funext fun a => Fin.ext ?_)) (congrArg (val_main_v3 (F := Ideal) x3 x5) (funext fun a => Fin.ext ?_))
  · match a with
    | ⟨0, _⟩ => rfl
    | ⟨1, _⟩ => rfl
  · match a with
    | ⟨0, _⟩ => rfl
    | ⟨1, _⟩ => rfl

/-! The five column blocks. -/

theorem xz_at (P : Fin 8192) (q : Fin 1024) :
    val_main_v6 (F := Ideal) x0 x2 x4 x7 (ix2 P q) = val_main_v2 (F := Ideal) x0 x2 x4 x7 (ix2 P (lift 3072 0 (by decide) q)) := by
  rw [val_main_v6_apply]
  refine congrArg (val_main_v2 (F := Ideal) x0 x2 x4 x7) (funext fun a => Fin.ext ?_)
  match a with
  | ⟨0, _⟩ => rfl
  | ⟨1, _⟩ => exact (Nat.zero_add _).symm
theorem hz_at (P : Fin 8192) (q : Fin 1024) :
    val_main_v7 (F := Ideal) x1 x3 x5 (ix2 P q) = val_main_v5 (F := Ideal) x1 x3 x5 (ix2 P (lift 2048 0 (by decide) q)) := by
  rw [val_main_v7_apply]
  refine congrArg (val_main_v5 (F := Ideal) x1 x3 x5) (funext fun a => Fin.ext ?_)
  match a with
  | ⟨0, _⟩ => rfl
  | ⟨1, _⟩ => exact (Nat.zero_add _).symm
theorem xr_at (P : Fin 8192) (q : Fin 1024) :
    val_main_v15 (F := Ideal) x0 x2 x4 x7 (ix2 P q) = val_main_v2 (F := Ideal) x0 x2 x4 x7 (ix2 P (lift 3072 1024 (by decide) q)) := by
  rw [val_main_v15_apply]
  refine congrArg (val_main_v2 (F := Ideal) x0 x2 x4 x7) (funext fun a => Fin.ext ?_)
  match a with
  | ⟨0, _⟩ => rfl
  | ⟨1, _⟩ => rfl
theorem hr_at (P : Fin 8192) (q : Fin 1024) :
    val_main_v16 (F := Ideal) x1 x3 x5 (ix2 P q) = val_main_v5 (F := Ideal) x1 x3 x5 (ix2 P (lift 2048 1024 (by decide) q)) := by
  rw [val_main_v16_apply]
  refine congrArg (val_main_v5 (F := Ideal) x1 x3 x5) (funext fun a => Fin.ext ?_)
  match a with
  | ⟨0, _⟩ => rfl
  | ⟨1, _⟩ => rfl
theorem xc_at (P : Fin 8192) (q : Fin 1024) :
    val_main_v27 (F := Ideal) x0 x2 x4 x7 (ix2 P q) = val_main_v2 (F := Ideal) x0 x2 x4 x7 (ix2 P (lift 3072 2048 (by decide) q)) := by
  rw [val_main_v27_apply]
  refine congrArg (val_main_v2 (F := Ideal) x0 x2 x4 x7) (funext fun a => Fin.ext ?_)
  match a with
  | ⟨0, _⟩ => rfl
  | ⟨1, _⟩ => rfl

/-- The batch rows and stacked weights the cell is read at. -/
abbrev xrow (P : Fin 8192) : Fin 1024 → EReal := fun k => x0 (ix2 P k)
abbrev hrow (P : Fin 8192) : Fin 1024 → EReal := fun k => x1 (ix2 P k)
abbrev WX : Fin 3072 → Fin 1024 → EReal := fun j k => val_main_v0 (F := Ideal) x2 x4 x7 (ix2 j k)
abbrev WH : Fin 2048 → Fin 1024 → EReal := fun j k => val_main_v3 (F := Ideal) x3 x5 (ix2 j k)

/-- One over one plus the exponential of the negation, with the ones as their words, is the logistic function. -/
theorem logistic_spelt (v : EReal) :
    Ideal.div (Ideal.ofBits .f32 0x3F800000#32) (Ideal.ofBits .f32 0x3F800000#32 + Ideal.exp (-v)) = Ideal.logistic v := by
  rw [Ideal.ofBits_one_f32]; rfl

/-- The update gate. -/
theorem update_at (P : Fin 8192) (q : Fin 1024) :
    val_main_v14 (F := Ideal) x0 x1 x2 x3 x4 x5 x7 (ix2 P q) = update (xrow x0 P) (hrow x1 P) (WX x2 x4 x7) (WH x3 x5) q := by
  rw [val_main_v14_apply, val_main_v13_apply, val_main_cst_0_apply, val_main_v12_apply, val_main_v11_apply, val_main_cst_apply,
    val_main_v10_apply, val_main_v9_apply, val_main_v8_apply, xz_at, hz_at, xproj_at, hproj_at]
  exact logistic_spelt _

/-- The reset gate. -/
theorem reset_at (P : Fin 8192) (j : Fin 1024) :
    val_main_v23 (F := Ideal) x0 x1 x2 x3 x4 x5 x7 (ix2 P j) = reset (xrow x0 P) (hrow x1 P) (WX x2 x4 x7) (WH x3 x5) j := by
  rw [val_main_v23_apply, val_main_v22_apply, val_main_cst_2_apply, val_main_v21_apply, val_main_v20_apply, val_main_cst_1_apply,
    val_main_v19_apply, val_main_v18_apply, val_main_v17_apply, xr_at, hr_at, xproj_at, hproj_at]
  exact logistic_spelt _

/-- The candidate state. -/
theorem candidate_at (P : Fin 8192) (q : Fin 1024) :
    val_main_v29 (F := Ideal) x0 x1 x2 x3 x4 x5 x6 x7 (ix2 P q)
      = candidate (xrow x0 P) (hrow x1 P) (WX x2 x4 x7) (WH x3 x5) (fun a b => x6 (ix2 a b)) q := by
  rw [val_main_v29_apply, val_main_v28_apply, val_main_v26_apply, xc_at, xproj_at]
  have hsum : (∑ k : Fin 1024, val_main_v24 (F := Ideal) x0 x1 x2 x3 x4 x5 x7 (lidx_main_v26 (ix2 P q) k) * val_main_v25 (F := Ideal) x6 (ridx_main_v26 (ix2 P q) k))
      = ∑ j : Fin 1024, (reset (xrow x0 P) (hrow x1 P) (WX x2 x4 x7) (WH x3 x5) j * x1 (ix2 P j)) * x6 (ix2 q j) := by
    refine Finset.sum_congr rfl fun k _ => ?_
    have el : lidx_main_v26 (ix2 P q) k = ix2 P k := funext fun a => Fin.ext (by
      match a with
      | ⟨0, _⟩ => rfl
      | ⟨1, _⟩ => rfl)
    have er : idx_main_v25 (ridx_main_v26 (ix2 P q) k) = ix2 q k := funext fun a => Fin.ext (by
      match a with
      | ⟨0, _⟩ => rfl
      | ⟨1, _⟩ => rfl)
    rw [el, val_main_v24_apply, reset_at, val_main_v25_apply, er]
    rfl
  rw [hsum]
  rfl

/-- The reference's result at (P, q) is the cell's new state of batch row P at coordinate q. -/
theorem result_at (P : Fin 8192) (q : Fin 1024) :
    val_main_v34 (F := Ideal) x0 x1 x2 x3 x4 x5 x6 x7 (ix2 P q)
      = cellAt x0 x1 (val_main_v0 (F := Ideal) x2 x4 x7) (val_main_v3 (F := Ideal) x3 x5) x6 P q := by
  rw [val_main_v34_apply, val_main_v30_apply, val_main_v33_apply, val_main_v32_apply, val_main_v31_apply, val_main_cst_3_apply,
    update_at, candidate_at]
  unfold cellAt cell
  show update _ _ _ _ q * x1 (ix2 P q) + (Ideal.ofBits .f32 0x3F800000#32 - update _ _ _ _ q) * candidate _ _ _ _ _ q = _
  rw [Ideal.ofBits_one_f32]

/-- The reference's result array is the array of new states. -/
theorem result_eq :
    val_main_v34 (F := Ideal) x0 x1 x2 x3 x4 x5 x6 x7
      = newState x0 x1 (val_main_v0 (F := Ideal) x2 x4 x7) (val_main_v3 (F := Ideal) x3 x5) x6 := by
  funext i
  obtain ⟨P, q, rfl⟩ : ∃ (P : Fin 8192) (q : Fin 1024), i = ix2 P q := ⟨i 0, i 1, eq_ix2 i⟩
  rw [result_at, newState_ix2]

end Cert.ReferenceIdeal.IsCell

end
-- ==== Proof.lean ====
/-
  A gated recurrent cell computed by a tiled kernel against its plain reference, equal on the extended reals.

  The kernel's program stacks the weight matrices (three that act on the input, two that act on the state), narrows
  the stacks and the candidate weights to a short float format, and walks the batch in sixteen blocks of 512 rows; its
  body writes each block of the result in four bands of 128 rows. On the extended reals narrowing is the identity, a
  product "rows times the rows of a matrix" into a zero accumulator is a plain sum, and every band's value is the cell's
  new state on the band's own rows; so the result array is the array of new states (WholeValue). The reference
  stacks the same matrices, transposes the stacks, multiplies, slices the gates' column blocks out of the products and
  spells the logistic function as one over one plus an exponential: entry by entry the same new state (RefIsCell). No
  law of arithmetic beyond re-indexing the sums is used, so the inputs' finiteness is never opened.
  The three frames: the two programs with a kernel by running the body symbolically at a generic grid point
  (FrameK, FrameKI), the reference by its run with the result dropped. Nothing was rewritten by the idealization, so
  there is nothing to preserve.
-/
import proofs.«165459_j34943853920831_2_alg».proof.Defs
import proofs.«165459_j34943853920831_2_alg».proof.Proof.Gen.Kernel
import proofs.«165459_j34943853920831_2_alg».proof.Proof.Gen.KernelIdeal
import proofs.«165459_j34943853920831_2_alg».proof.Proof.Gen.ReferenceIdeal
import proofs.«165459_j34943853920831_2_alg».proof.Proof.Gen.Pre_finite_inputs
import proofs.«165459_j34943853920831_2_alg».proof.Proof.Gen.ReferenceIdeal.Run
import proofs.«165459_j34943853920831_2_alg».proof.Proof.Gen.ReferenceIdeal.Read
import proofs.«165459_j34943853920831_2_alg».proof.Proof.FrameK
import proofs.«165459_j34943853920831_2_alg».proof.Proof.FrameKI
import proofs.«165459_j34943853920831_2_alg».proof.Proof.WholeValue
import proofs.«165459_j34943853920831_2_alg».proof.Proof.RefIsCell
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Hand.frame m ρ

theorem frame_ki : Cert.frame_KernelIdeal := fun m ρ _ => Cert.KernelIdeal.Hand.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the result array at the array of new states of the same arguments. -/
theorem algebraic : Cert.algebraic_KernelIdeal_ReferenceIdeal := by
  intro m ρ m' ρ' _ hagree
  refine ⟨fun c => Cert.KernelIdeal.Whole.launched m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v34_eq, Cert.ReferenceIdeal.IsCell.result_eq]
  obtain ⟨h0, h1, h2, h3, h4, h5, h6, h7⟩ := hagree c
  rw [h0, h1, h2, h3, h4, h5, h6, h7]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
